-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S256x2304 : Shape := ⟨2, ![256, 2304]⟩
abbrev S256 : Shape := ⟨1, ![256]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S256x2304 : S_.BroadcastsInDim S256x2304 (![] : Fin 0 → Fin S256x2304.rank)
  reducesTo_S256x2304_S_d0_1 : S256x2304.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S32768x256 .f32) (main_arg1 : FVec F S256x2304 .f32) (main_arg2 : FVec F S256 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S256x2304 .f32 := Host.absf main_arg1
  let main_cst_0 : FVec F S_ .f32 := constant S_ .f32 0x7F800000#32
  let main_v5 : FVec F S256x2304 .f32 := broadcastInDim S256x2304 ![] bcast_S_S256x2304 main_cst_0
  let main_v6 : IVec S256x2304 1 := cmpf .olt main_v4 main_v5
  let main_c_1 : IVec S_ 1 := constantI S_ 1 1#1
  let main_v7 : IVec S_ 1 := (fun x v => Host.reduce IntOp.andi x v reducesTo_S256x2304_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S32768x256 : Shape := ⟨2, ![32768, 256]⟩
abbrev S256x2304 : Shape := ⟨2, ![256, 2304]⟩
abbrev S256 : Shape := ⟨1, ![256]⟩
abbrev S256x256x9 : Shape := ⟨3, ![256, 256, 9]⟩
abbrev S9x256x256 : Shape := ⟨3, ![9, 256, 256]⟩
abbrev S1x256 : Shape := ⟨2, ![1, 256]⟩
abbrev S32768x1 : Shape := ⟨2, ![32768, 1]⟩
abbrev S4096x256 : Shape := ⟨2, ![4096, 256]⟩
abbrev S4096x1 : Shape := ⟨2, ![4096, 1]⟩
abbrev S1x256x256 : Shape := ⟨3, ![1, 256, 256]⟩
abbrev S256x256 : Shape := ⟨2, ![256, 256]⟩
abbrev S4096 : Shape := ⟨1, ![4096]⟩
abbrev S32768 : Shape := ⟨1, ![32768]⟩

abbrev nBuf : Space → Nat
  | .hbm => 9
  | .vmem => 9
  | .smem => 0
  | _ => 0

abbrev bufTy : (tb : Table) → Fin (tcTables nBuf tb) → BufTy
  | .hbm, ⟨0, _⟩ => ⟨S32768x256, .f32⟩
  | .hbm, ⟨1, _⟩ => ⟨S256x2304, .f32⟩
  | .hbm, ⟨2, _⟩ => ⟨S256, .f32⟩
  | .hbm, ⟨3, _⟩ => ⟨S256x256x9, .f32⟩
  | .hbm, ⟨4, _⟩ => ⟨S9x256x256, .f32⟩
  | .hbm, ⟨5, _⟩ => ⟨S9x256x256, .bf16⟩
  | .hbm, ⟨6, _⟩ => ⟨S1x256, .f32⟩
  | .hbm, ⟨7, _⟩ => ⟨S32768x1, .f32⟩
  | .hbm, ⟨8, _⟩ => ⟨S32768, .f32⟩
  | .local _ .vmem, ⟨0, _⟩ => ⟨S4096x256, .f32⟩
  | .local _ .vmem, ⟨1, _⟩ => ⟨S4096x256, .f32⟩
  | .local _ .vmem, ⟨2, _⟩ => ⟨S9x256x256, .bf16⟩
  | .local _ .vmem, ⟨3, _⟩ => ⟨S1x256, .f32⟩
  | .local _ .vmem, ⟨4, _⟩ => ⟨S4096x1, .f32⟩
  | .local _ .vmem, ⟨5, _⟩ => ⟨S4096x1, .f32⟩
  | .local _ .vmem, ⟨6, _⟩ => ⟨S4096x256, .f32⟩
  | .local _ .vmem, ⟨7, _⟩ => ⟨S4096x256, .f32⟩
  | .local _ .vmem, ⟨8, _⟩ => ⟨S4096x256, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S256x2304_S256x256x9 : S256x2304.ShapeCasts S256x256x9
  transposes_S256x256x9_S9x256x256_2_1_0 : S256x256x9.Transposes [2, 1, 0] S9x256x256
  bitsLt_bf16_f32 : FTy.bits .bf16 < FTy.bits .f32
  shapeCasts_S256_S1x256 : S256.ShapeCasts S1x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S9x256x256_S1x256x256_0_0_0 : ∀ a, (![0, 0, 0] : Fin 3 → Nat) a + S1x256x256.size a ≤ S9x256x256.size a
  h_S1x256x256 : 0 < S1x256x256.numel
  shapeCasts_S1x256x256_S256x256 : S1x256x256.ShapeCasts S256x256
  inb_S9x256x256_S1x256x256_1_0_0 : ∀ a, (![1, 0, 0] : Fin 3 → Nat) a + S1x256x256.size a ≤ S9x256x256.size a
  inb_S9x256x256_S1x256x256_2_0_0 : ∀ a, (![2, 0, 0] : Fin 3 → Nat) a + S1x256x256.size a ≤ S9x256x256.size a
  inb_S9x256x256_S1x256x256_3_0_0 : ∀ a, (![3, 0, 0] : Fin 3 → Nat) a + S1x256x256.size a ≤ S9x256x256.size a
  inb_S9x256x256_S1x256x256_4_0_0 : ∀ a, (![4, 0, 0] : Fin 3 → Nat) a + S1x256x256.size a ≤ S9x256x256.size a
  inb_S9x256x256_S1x256x256_5_0_0 : ∀ a, (![5, 0, 0] : Fin 3 → Nat) a + S1x256x256.size a ≤ S9x256x256.size a
  inb_S9x256x256_S1x256x256_6_0_0 : ∀ a, (![6, 0, 0] : Fin 3 → Nat) a + S1x256x256.size a ≤ S9x256x256.size a
  inb_S9x256x256_S1x256x256_7_0_0 : ∀ a, (![7, 0, 0] : Fin 3 → Nat) a + S1x256x256.size a ≤ S9x256x256.size a
  inb_S9x256x256_S1x256x256_8_0_0 : ∀ a, (![8, 0, 0] : Fin 3 → Nat) a + S1x256x256.size a ≤ S9x256x256.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  reduces_S4096x256_S4096 : S4096x256.Reduces [1] S4096
  shapeCasts_S4096_S4096x1 : S4096.ShapeCasts S4096x1
  inb_S4096x1_S4096x1_0_0 : ∀ a, (![0, 0] : Fin 2 → Nat) a + S4096x1.size a ≤ S4096x1.size a
  h_S4096x1 : 0 < S4096x1.numel
  shapeCasts_S32768x1_S32768 : S32768x1.ShapeCasts S32768
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S32768x256.size a
  hwx0_0 : ∀ i : grid0.Coords, EltTy.bits .f32 = 32 ∨ (Rect.block (s := S32768x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x256x256.size a ≤ S9x256x256.size a
  hwx0_1 : ∀ i : grid0.Coords, EltTy.bits .bf16 = 32 ∨ (Rect.block (s := S9x256x256) S9x256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x1.size a ≤ S32768x1.size a
  hwx0_3 : ∀ i : grid0.Coords, EltTy.bits .f32 = 32 ∨ (Rect.block (s := S32768x1) S4096x1.size (cc0_transform_3 i) (hinb0_3 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S9x256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4096x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x256 : Shape := ⟨2, ![32768, 256]⟩
abbrev S256x2304 : Shape := ⟨2, ![256, 2304]⟩
abbrev S256 : Shape := ⟨1, ![256]⟩
abbrev S_ : Shape := ⟨0, ![]⟩
abbrev S32768x256x1 : Shape := ⟨3, ![32768, 256, 1]⟩
abbrev S32768x256x9 : Shape := ⟨3, ![32768, 256, 9]⟩
abbrev S32768x2304 : Shape := ⟨2, ![32768, 2304]⟩
abbrev S2304x256 : Shape := ⟨2, ![2304, 256]⟩
abbrev S1x256 : Shape := ⟨2, ![1, 256]⟩
abbrev S32768 : Shape := ⟨1, ![32768]⟩

abbrev nBuf : Space → Nat
  | .hbm => 59
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S256x2304, .f32⟩
  | .hbm, ⟨2, _⟩ => ⟨S256, .f32⟩
  | .hbm, ⟨3, _⟩ => ⟨S32768x256, .f32⟩
  | .hbm, ⟨4, _⟩ => ⟨S_, .f32⟩
  | .hbm, ⟨5, _⟩ => ⟨S32768x256, .f32⟩
  | .hbm, ⟨6, _⟩ => ⟨S_, .f32⟩
  | .hbm, ⟨7, _⟩ => ⟨S32768x256, .f32⟩
  | .hbm, ⟨8, _⟩ => ⟨S32768x256, .f32⟩
  | .hbm, ⟨9, _⟩ => ⟨S32768x256, .f32⟩
  | .hbm, ⟨10, _⟩ => ⟨S32768x256, .f32⟩
  | .hbm, ⟨11, _⟩ => ⟨S_, .f32⟩
  | .hbm, ⟨12, _⟩ => ⟨S32768x256, .f32⟩
  | .hbm, ⟨13, _⟩ => ⟨S32768x256, .f32⟩
  | .hbm, ⟨14, _⟩ => ⟨S32768x256, .f32⟩
  | .hbm, ⟨15, _⟩ => ⟨S32768x256, .f32⟩
  | .hbm, ⟨16, _⟩ => ⟨S_, .f32⟩
  | .hbm, ⟨17, _⟩ => ⟨S32768x256, .f32⟩
  | .hbm, ⟨18, _⟩ => ⟨S32768x256, .f32⟩
  | .hbm, ⟨19, _⟩ => ⟨S32768x256, .f32⟩
  | .hbm, ⟨20, _⟩ => ⟨S32768x256, .f32⟩
  | .hbm, ⟨21, _⟩ => ⟨S_, .f32⟩
  | .hbm, ⟨22, _⟩ => ⟨S32768x256, .f32⟩
  | .hbm, ⟨23, _⟩ => ⟨S32768x256, .f32⟩
  | .hbm, ⟨24, _⟩ => ⟨S32768x256, .f32⟩
  | .hbm, ⟨25, _⟩ => ⟨S32768x256, .f32⟩
  | .hbm, ⟨26, _⟩ => ⟨S_, .f32⟩
  | .hbm, ⟨27, _⟩ => ⟨S32768x256, .f32⟩
  | .hbm, ⟨28, _⟩ => ⟨S32768x256, .f32⟩
  | .hbm, ⟨29, _⟩ => ⟨S32768x256, .f32⟩
  | .hbm, ⟨30, _⟩ => ⟨S32768x256, .f32⟩
  | .hbm, ⟨31, _⟩ => ⟨S_, .f32⟩
  | .hbm, ⟨32, _⟩ => ⟨S32768x256, .f32⟩
  | .hbm, ⟨33, _⟩ => ⟨S32768x256, .f32⟩
  | .hbm, ⟨34, _⟩ => ⟨S32768x256, .f32⟩
  | .hbm, ⟨35, _⟩ => ⟨S32768x256, .f32⟩
  | .hbm, ⟨36, _⟩ => ⟨S_, .f32⟩
  | .hbm, ⟨37, _⟩ => ⟨S32768x256, .f32⟩
  | .hbm, ⟨38, _⟩ => ⟨S32768x256, .f32⟩
  | .hbm, ⟨39, _⟩ => ⟨S32768x256, .f32⟩
  | .hbm, ⟨40, _⟩ => ⟨S32768x256, .f32⟩
  | .hbm, ⟨41, _⟩ => ⟨S32768x256x1, .f32⟩
  | .hbm, ⟨42, _⟩ => ⟨S32768x256x1, .f32⟩
  | .hbm, ⟨43, _⟩ => ⟨S32768x256x1, .f32⟩
  | .hbm, ⟨44, _⟩ => ⟨S32768x256x1, .f32⟩
  | .hbm, ⟨45, _⟩ => ⟨S32768x256x1, .f32⟩
  | .hbm, ⟨46, _⟩ => ⟨S32768x256x1, .f32⟩
  | .hbm, ⟨47, _⟩ => ⟨S32768x256x1, .f32⟩
  | .hbm, ⟨48, _⟩ => ⟨S32768x256x1, .f32⟩
  | .hbm, ⟨49, _⟩ => ⟨S32768x256x1, .f32⟩
  | .hbm, ⟨50, _⟩ => ⟨S32768x256x9, .f32⟩
  | .hbm, ⟨51, _⟩ => ⟨S32768x2304, .f32⟩
  | .hbm, ⟨52, _⟩ => ⟨S2304x256, .f32⟩
  | .hbm, ⟨53, _⟩ => ⟨S32768x256, .f32⟩
  | .hbm, ⟨54, _⟩ => ⟨S1x256, .f32⟩
  | .hbm, ⟨55, _⟩ => ⟨S32768x256, .f32⟩
  | .hbm, ⟨56, _⟩ => ⟨S32768x256, .f32⟩
  | .hbm, ⟨57, _⟩ => ⟨S_, .f32⟩
  | .hbm, ⟨58, _⟩ => ⟨S32768, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩

abbrev nD : Nat := 1
abbrev τ : Topo := Topo.v7x

variable {F : FTy → Type} [FloatOps F]

class Facts₀ : Prop where
  bcast_S_S32768x256 : S_.BroadcastsInDim S32768x256 (![] : Fin 0 → Fin S32768x256.rank)
  bcast_S32768x256_S32768x256x1_0_1 : S32768x256.BroadcastsInDim S32768x256x1 (![0, 1] : Fin 2 → Fin S32768x256x1.rank)
  concatenates_S32768x256x1_S32768x256x1_S32768x256x1_S32768x256x1_S32768x256x1_S32768x256x1_S32768x256x1_S32768x256x1_S32768x256x1_S32768x256x9_d2 : Shape.Concatenates [S32768x256x1, S32768x256x1, S32768x256x1, S32768x256x1, S32768x256x1, S32768x256x1, S32768x256x1, S32768x256x1, S32768x256x1] S32768x256x9 2
  shapeCasts_S32768x256x9_S32768x2304 : S32768x256x9.ShapeCasts S32768x2304
  transposes_S256x2304_S2304x256_1_0 : S256x2304.Transposes [1, 0] S2304x256
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  reducesTo_S32768x256_S32768_d1 : S32768x256.ReducesTo [1] S32768
  h_S_ : 0 < S_.numel
  dot_S32768x2304_S2304x256_S32768x256_1_0_0_1_n_n_wf : DotDims.WF S32768x2304 S2304x256 S32768x256 [1] [0] [0] [1] [] []

variable [Facts₀]

def dot_S32768x2304_S2304x256_S32768x256_1_0_0_1_n_n : DotDims S32768x2304 S2304x256 S32768x256 where
  lhsContracting := [1]
  rhsContracting := [0]
  lhsNonContracting := [0]
  rhsNonContracting := [1]
  lhsBatch := []
  rhsBatch := []
  wf := dot_S32768x2304_S2304x256_S32768x256_1_0_0_1_n_n_wf

class Facts : Prop extends Facts₀ where

variable [Facts]
-- ==== Proof.Spec.lean ====
/-
  The layer as one function of its three argument arrays, on the extended reals.

  For a row `b` of `x` and a coordinate `d`, put `u = tanh x[b, d]` and let `T_0 = 1`, `T_1 = u`,
  `T_{k+2} = (2 · u) · T_{k+1} − T_k` (the Chebyshev recurrence, grouped as both programs group it). The feature
  row of `b` lists, for each `d` in turn, the nine values `T_0 … T_8`: feature `f` is `T_{f % 9}` at coordinate
  `f / 9`. Neuron `n` of row `b` is the sum over the 2304 features of feature `f` times `coeffs[n, f]`, and the
  result at `b` is the sum over the 256 neurons of the neuron times `hweights[n]`, from the zero both programs start
  their last sum with.

  The one law that joins the two programs: a sum over the 2304 features is the sum, degree by degree, of the 256-term
  sums over the coordinates (feature `d · 9 + k` is degree `k` at coordinate `d`) — a re-indexing of a finite sum in a
  commutative monoid, so it holds for every extended real, infinite entries included.
-/
import Idealize.ShloMosaic.PureOps.Ideal.Laws
import Idealize.ShloMosaic.Lib.ValueIdx

noncomputable section

namespace Cert.KanSpec

open Idealize.ShloMosaic Idealize.ShloMosaic.ValueIdx

/-- The two float constants of the recurrence, kept as their words (the same word on both sides). -/
abbrev one : EReal := Ideal.ofBits .f32 0x3F800000#32
abbrev two : EReal := Ideal.ofBits .f32 0x40000000#32
/-- The zero word both final sums start from. -/
abbrev zero : EReal := Ideal.ofBits .f32 0x00000000#32

/-- `T_k` at the value `u`. -/
def cheb (u : EReal) : ℕ → EReal
  | 0 => one
  | 1 => u
  | (k + 2) => two * u * cheb u (k + 1) - cheb u k

theorem cheb_zero (u : EReal) : cheb u 0 = one := rfl
theorem cheb_one (u : EReal) : cheb u 1 = u := rfl
theorem cheb_add_two (u : EReal) (k : ℕ) : cheb u (k + 2) = two * u * cheb u (k + 1) - cheb u k := rfl

/-- Degree `k` at row `b`, coordinate `d`. -/
def feat (x : (⟨2, ![32768, 256]⟩ : Shape).Idx → EReal) (b : Fin 32768) (d : Fin 256) (k : ℕ) : EReal :=
  cheb (Ideal.tanh (x (ix2 b d))) k

/-- Neuron `n` of row `b`: the 2304 features against row `n` of the coefficients. -/
def neuron (x : (⟨2, ![32768, 256]⟩ : Shape).Idx → EReal) (cf : (⟨2, ![256, 2304]⟩ : Shape).Idx → EReal)
    (b : Fin 32768) (n : Fin 256) : EReal :=
  ∑ f : Fin 2304, feat x b ⟨f.val / 9, by have := f.isLt; omega⟩ (f.val % 9) * cf (ix2 n f)

/-- The result array. -/
def G (x : (⟨2, ![32768, 256]⟩ : Shape).Idx → EReal) (cf : (⟨2, ![256, 2304]⟩ : Shape).Idx → EReal)
    (hw : (⟨1, ![256]⟩ : Shape).Idx → EReal) : (⟨1, ![32768]⟩ : Shape).Idx → EReal :=
  fun i => zero + ∑ n : Fin 256, neuron x cf (i 0) n * hw (ix1 n)

/-- A sum over 2304 = 256 · 9 positions, taken degree by degree: position `d · 9 + k` is degree `k` of coordinate `d`. -/
theorem sum_by_degree {M : Type*} [AddCommMonoid M] (g : Fin 2304 → M) :
    ∑ f : Fin 2304, g f = ∑ k : Fin 9, ∑ d : Fin 256, g ⟨d.val * 9 + k.val, by have := d.isLt; have := k.isLt; omega⟩ := by
  rw [← (finProdFinEquiv (m := 256) (n := 9)).sum_comp g, Fintype.sum_prod_type, Finset.sum_comm]
  refine Finset.sum_congr rfl fun k _ => Finset.sum_congr rfl fun d _ => congrArg g (Fin.ext ?_)
  show k.val + 9 * d.val = d.val * 9 + k.val
  omega

/-- The sum of the 256 terms of degree `k`: what one of the nine matrix products contributes to neuron `n`. -/
def degreeSum (x : (⟨2, ![32768, 256]⟩ : Shape).Idx → EReal) (cf : (⟨2, ![256, 2304]⟩ : Shape).Idx → EReal)
    (b : Fin 32768) (n : Fin 256) (k : Fin 9) : EReal :=
  ∑ d : Fin 256, feat x b d k.val * cf (ix2 n ⟨d.val * 9 + k.val, by have := d.isLt; have := k.isLt; omega⟩)

/-- The neuron is the nine degree sums added in order onto zero — the order in which the accumulator takes them. -/
theorem neuron_eq_acc (x : (⟨2, ![32768, 256]⟩ : Shape).Idx → EReal) (cf : (⟨2, ![256, 2304]⟩ : Shape).Idx → EReal)
    (b : Fin 32768) (n : Fin 256) :
    neuron x cf b n
      = zero + degreeSum x cf b n 0 + degreeSum x cf b n 1 + degreeSum x cf b n 2 + degreeSum x cf b n 3
          + degreeSum x cf b n 4 + degreeSum x cf b n 5 + degreeSum x cf b n 6 + degreeSum x cf b n 7
          + degreeSum x cf b n 8 := by
  unfold neuron
  rw [sum_by_degree, Fin.sum_univ_castSucc, Fin.sum_univ_eight]
  show _ = Ideal.ofBits .f32 0x00000000#32 + _ + _ + _ + _ + _ + _ + _ + _ + _
  rw [Ideal.ofBits_zero_f32, zero_add]
  unfold degreeSum
  have hf : ∀ (d : Fin 256) (k : Fin 9),
      feat x b ⟨(d.val * 9 + k.val) / 9, by have := d.isLt; have := k.isLt; omega⟩ ((d.val * 9 + k.val) % 9)
        = feat x b d k.val := fun d k => by
    have h1 : (d.val * 9 + k.val) / 9 = d.val := by have := k.isLt; omega
    have h2 : (d.val * 9 + k.val) % 9 = k.val := by have := k.isLt; omega
    rw [h2]; exact congrArg (fun e => feat x b e k.val) (Fin.ext h1)
  simp only [hf]
  rfl

end Cert.KanSpec

end
-- ==== Proof.LibReadBack.lean ====
/-
  A load of a whole buffer after a list of stores whose LAST store wrote the whole buffer reads that store's payload,
  whatever the earlier stores were: a scratch buffer overwritten and read back.
-/
import Idealize.ShloMosaic.Lib.Pipeline.Value

noncomputable section

namespace Idealize.ShloMosaic.View

open Idealize.ShloMosaic

variable {Val : EltTy → Type} {S : Shape} {e : EltTy}

/-- The covered load through the whole-buffer rectangle of what the stores `⟨whole, w⟩ :: L` left: `w`. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self .., by
    show y ∈ (Rect.whole S).set; rw [Rect.set_whole]; exact Finset.mem_univ y⟩), canon_cons_unit_zero rfl, ld_unit_zero rfl]

end Idealize.ShloMosaic.View

end
-- ==== Proof.LibColumn.lean ====
/-
  Two layout operations read at an index, for a column kept as a unit axis: a vector of length `a` cast to an
  `[a, 1]` array, and an `[a, 1]` array broadcast along its unit axis to `[a, b]`. Together they say that a per-row
  quantity (a row's maximum, a row's sum) spread back over the row's columns reads, at `(p, c)`, the quantity of row `p`.
-/
import Idealize.ShloMosaic.Lib.Pipeline.Value
import Idealize.ShloMosaic.Lib.ValueIdx

noncomputable section

namespace Idealize.ShloMosaic.ValueIdx

open Idealize.ShloMosaic

variable {α : Type}

/-- An `[a]` array cast to `[a, 1]` reads, at `(i, u)`, the operand at `i`, whatever the unit coordinate `u`:
    both indices sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p` at its one column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.KCheb.lean ====
/-
  The two carried buffers of the recurrence, read back at every step of the kernel body.

  With `u = tanh x[p, d]` at an entry of the block, the buffer holding the current term is found at
  `T_1, T_2, …, T_7` at its successive loads and the buffer holding the previous term at `T_0, …, T_6`; the new term
  each step forms from them is `(2 · u) · T_{k+1} − T_k = T_{k+2}`. Every statement here is pointwise: entry by entry
  the buffers hold the Chebyshev values of the entry's own `u`.
-/
import proofs.«131409_j60464549593380_1_alg».proof.Proof.Gen.KernelIdeal.Frame
import proofs.«131409_j60464549593380_1_alg».proof.Proof.Spec
import proofs.«131409_j60464549593380_1_alg».proof.Proof.LibReadBack

set_option maxRecDepth 16384

noncomputable section

namespace Cert.KernelIdeal.Kan

open Idealize.ShloMosaic Idealize.ShloMosaic.TcCoe Idealize.ShloMosaic.ValueIdx
open Cert.KernelIdeal Cert.KernelIdeal.Gen Cert.KanSpec

variable (c : Dev nD) (arg1 : Memref sig .tc .vmem S4096x256 .f32) (harg1 : arg1.IsWhole) (arg6 : Memref sig .tc .vmem S4096x256 .f32) (arg7 : Memref sig .tc .vmem S4096x256 .f32) (x0 : Vec Ideal S4096x256 .f32)

theorem hz2 : (![0, 0] : Fin S4096x256.rank → ℕ) = fun _ => 0 := by
  funext a; match a with
  | ⟨0, _⟩ => rfl
  | ⟨1, _⟩ => rfl

/-- The block's `tanh`, entry by entry. -/
theorem tanh_blk : kernelRun0_A.sl.r (F := Ideal) c arg1 harg1 x0 = fun j => Ideal.tanh (x0 j) := by
  unfold kernelRun0_A.sl.r k0_pay5
  rw [View.readAt_eq_ld, harg1.read_unread, View.ld_unit_zero (S := S4096x256) hz2]
  rfl

/-- The previous-term buffer starts at `T_0`. -/
theorem prev0 : kernelRun0_A.sl.v14 (F := Ideal) c arg6 = fun j => cheb (Ideal.tanh (x0 j)) 0 := by
  unfold kernelRun0_A.sl.v14 kernelRun0_A.sl.HS1_1
  rw [View.readCov_unit_zero _ hz2]
  unfold k0_pay6
  dsimp only
  rw [shapeCast_self]
  rfl

/-- The current-term buffer starts at `T_1`. -/
theorem cur1 : kernelRun0_A.sl.v24 (F := Ideal) c arg1 harg1 arg7 x0 = fun j => cheb (Ideal.tanh (x0 j)) 1 := by
  unfold kernelRun0_A.sl.v24 kernelRun0_A.sl.HS2_1
  rw [View.readCov_unit_zero _ hz2]
  unfold k0_pay7 k0_pay5
  dsimp only
  rw [shapeCast_self, View.readAt_eq_ld, harg1.read_unread, View.ld_unit_zero (S := S4096x256) hz2]
  rfl

/-- The new term of step 2: `(2 · u) · T_1 − T_0 = T_2`. -/
theorem new2 : k0_pay13 (kernelRun0_A.sl.r (F := Ideal) c arg1 harg1 x0) (kernelRun0_A.sl.v24 (F := Ideal) c arg1 harg1 arg7 x0) (kernelRun0_A.sl.v14 (F := Ideal) c arg6) = fun j => cheb (Ideal.tanh (x0 j)) 2 := by
  unfold k0_pay13
  dsimp only
  rw [tanh_blk c arg1 harg1 x0, cur1 c arg1 harg1 arg7 x0, prev0 c arg6 x0]
  rfl

/-- The current-term buffer after step 2 holds `T_2`. -/
theorem cur2 : kernelRun0_A.sl.v57 (F := Ideal) c arg1 harg1 arg6 arg7 x0 = fun j => cheb (Ideal.tanh (x0 j)) 2 := by
  unfold kernelRun0_A.sl.v57 kernelRun0_A.sl.HS2_2
  rw [View.readCov_cons_unit_zero _ hz2]
  unfold k0_pay16
  dsimp only
  rw [shapeCast_self, new2 c arg1 harg1 arg6 arg7 x0]

/-- The previous-term buffer after step 2 holds `T_1`. -/
theorem prev1 : kernelRun0_A.sl.v59 (F := Ideal) c arg1 harg1 arg6 arg7 x0 = fun j => cheb (Ideal.tanh (x0 j)) 1 := by
  unfold kernelRun0_A.sl.v59 kernelRun0_A.sl.HS1_2
  rw [View.readCov_cons_unit_zero _ hz2]
  unfold k0_pay15
  dsimp only
  rw [shapeCast_self, cur1 c arg1 harg1 arg7 x0]

/-- The new term of step 3: `(2 · u) · T_2 − T_1 = T_3`. -/
theorem new3 : k0_pay18 (kernelRun0_A.sl.r_3 (F := Ideal) c arg1 harg1 arg6 arg7 x0) (kernelRun0_A.sl.v59 (F := Ideal) c arg1 harg1 arg6 arg7 x0) = fun j => cheb (Ideal.tanh (x0 j)) 3 := by
  unfold k0_pay18 kernelRun0_A.sl.r_3 k0_pay17
  dsimp only
  rw [tanh_blk c arg1 harg1 x0, cur2 c arg1 harg1 arg6 arg7 x0, prev1 c arg1 harg1 arg6 arg7 x0]
  rfl

/-- The current-term buffer after step 3 holds `T_3`. -/
theorem cur3 : kernelRun0_A.sl.v79 (F := Ideal) c arg1 harg1 arg6 arg7 x0 = fun j => cheb (Ideal.tanh (x0 j)) 3 := by
  unfold kernelRun0_A.sl.v79 kernelRun0_A.sl.HS2_3
  rw [View.readCov_cons_unit_zero _ hz2]
  unfold k0_pay21
  dsimp only
  rw [shapeCast_self, new3 c arg1 harg1 arg6 arg7 x0]

/-- The previous-term buffer after step 3 holds `T_2`. -/
theorem prev2 : kernelRun0_A.sl.v81 (F := Ideal) c arg1 harg1 arg6 arg7 x0 = fun j => cheb (Ideal.tanh (x0 j)) 2 := by
  unfold kernelRun0_A.sl.v81 kernelRun0_A.sl.HS1_3
  rw [View.readCov_cons_unit_zero _ hz2]
  unfold k0_pay20
  dsimp only
  rw [shapeCast_self, cur2 c arg1 harg1 arg6 arg7 x0]

/-- The new term of step 4: `(2 · u) · T_3 − T_2 = T_4`. -/
theorem new4 : kernelRun0_A.sl.r_4 (F := Ideal) c arg1 harg1 arg6 arg7 x0 = fun j => cheb (Ideal.tanh (x0 j)) 4 := by
  unfold kernelRun0_A.sl.r_4 k0_pay22
  dsimp only
  rw [tanh_blk c arg1 harg1 x0, cur3 c arg1 harg1 arg6 arg7 x0, prev2 c arg1 harg1 arg6 arg7 x0]
  rfl

/-- The current-term buffer after step 4 holds `T_4`. -/
theorem cur4 : kernelRun0_A.sl.v101 (F := Ideal) c arg1 harg1 arg6 arg7 x0 = fun j => cheb (Ideal.tanh (x0 j)) 4 := by
  unfold kernelRun0_A.sl.v101 kernelRun0_A.sl.HS2_4
  rw [View.readCov_cons_unit_zero _ hz2]
  unfold k0_pay26
  dsimp only
  rw [shapeCast_self, new4 c arg1 harg1 arg6 arg7 x0]

/-- The previous-term buffer after step 4 holds `T_3`. -/
theorem prev3 : kernelRun0_A.sl.v103 (F := Ideal) c arg1 harg1 arg6 arg7 x0 = fun j => cheb (Ideal.tanh (x0 j)) 3 := by
  unfold kernelRun0_A.sl.v103 kernelRun0_A.sl.HS1_4
  rw [View.readCov_cons_unit_zero _ hz2]
  unfold k0_pay25
  dsimp only
  rw [shapeCast_self, cur3 c arg1 harg1 arg6 arg7 x0]

/-- The new term of step 5: `(2 · u) · T_4 − T_3 = T_5`. -/
theorem new5 : kernelRun0_A.sl.r_6 (F := Ideal) c arg1 harg1 arg6 arg7 x0 = fun j => cheb (Ideal.tanh (x0 j)) 5 := by
  unfold kernelRun0_A.sl.r_6 k0_pay27
  dsimp only
  rw [tanh_blk c arg1 harg1 x0, cur4 c arg1 harg1 arg6 arg7 x0, prev3 c arg1 harg1 arg6 arg7 x0]
  rfl

/-- The current-term buffer after step 5 holds `T_5`. -/
theorem cur5 : kernelRun0_A.sl.v123 (F := Ideal) c arg1 harg1 arg6 arg7 x0 = fun j => cheb (Ideal.tanh (x0 j)) 5 := by
  unfold kernelRun0_A.sl.v123 kernelRun0_A.sl.HS2_5
  rw [View.readCov_cons_unit_zero _ hz2]
  unfold k0_pay30
  dsimp only
  rw [shapeCast_self, new5 c arg1 harg1 arg6 arg7 x0]

/-- The previous-term buffer after step 5 holds `T_4`. -/
theorem prev4 : kernelRun0_A.sl.v125 (F := Ideal) c arg1 harg1 arg6 arg7 x0 = fun j => cheb (Ideal.tanh (x0 j)) 4 := by
  unfold kernelRun0_A.sl.v125 kernelRun0_A.sl.HS1_5
  rw [View.readCov_cons_unit_zero _ hz2]
  unfold k0_pay29
  dsimp only
  rw [shapeCast_self, cur4 c arg1 harg1 arg6 arg7 x0]

/-- The new term of step 6: `(2 · u) · T_5 − T_4 = T_6`. -/
theorem new6 : k0_pay31 (kernelRun0_A.sl.r (F := Ideal) c arg1 harg1 x0) (kernelRun0_A.sl.v123 (F := Ideal) c arg1 harg1 arg6 arg7 x0) (kernelRun0_A.sl.v125 (F := Ideal) c arg1 harg1 arg6 arg7 x0) = fun j => cheb (Ideal.tanh (x0 j)) 6 := by
  unfold k0_pay31
  dsimp only
  rw [tanh_blk c arg1 harg1 x0, cur5 c arg1 harg1 arg6 arg7 x0, prev4 c arg1 harg1 arg6 arg7 x0]
  rfl

/-- The current-term buffer after step 6 holds `T_6`. -/
theorem cur6 : kernelRun0_A.sl.v145 (F := Ideal) c arg1 harg1 arg6 arg7 x0 = fun j => cheb (Ideal.tanh (x0 j)) 6 := by
  unfold kernelRun0_A.sl.v145 kernelRun0_A.sl.HS2_6
  rw [View.readCov_cons_unit_zero _ hz2]
  unfold k0_pay34
  dsimp only
  rw [shapeCast_self, new6 c arg1 harg1 arg6 arg7 x0]

/-- The previous-term buffer after step 6 holds `T_5`. -/
theorem prev5 : kernelRun0_A.sl.v147 (F := Ideal) c arg1 harg1 arg6 arg7 x0 = fun j => cheb (Ideal.tanh (x0 j)) 5 := by
  unfold kernelRun0_A.sl.v147 kernelRun0_A.sl.HS1_6
  rw [View.readCov_cons_unit_zero _ hz2]
  unfold k0_pay33
  dsimp only
  rw [shapeCast_self, cur5 c arg1 harg1 arg6 arg7 x0]

/-- The new term of step 7: `(2 · u) · T_6 − T_5 = T_7`. -/
theorem new7 : kernelRun0_A.sl.r_7 (F := Ideal) c arg1 harg1 arg6 arg7 x0 = fun j => cheb (Ideal.tanh (x0 j)) 7 := by
  unfold kernelRun0_A.sl.r_7 k0_pay35
  dsimp only
  rw [tanh_blk c arg1 harg1 x0, cur6 c arg1 harg1 arg6 arg7 x0, prev5 c arg1 harg1 arg6 arg7 x0]
  rfl

/-- The current-term buffer after step 7 holds `T_7`. -/
theorem cur7 : kernelRun0_A.sl.v167 (F := Ideal) c arg1 harg1 arg6 arg7 x0 = fun j => cheb (Ideal.tanh (x0 j)) 7 := by
  unfold kernelRun0_A.sl.v167 kernelRun0_A.sl.HS2_7
  rw [View.readCov_cons_unit_zero _ hz2]
  unfold k0_pay38
  dsimp only
  rw [shapeCast_self, new7 c arg1 harg1 arg6 arg7 x0]

/-- The previous-term buffer after step 7 holds `T_6`. -/
theorem prev6 : kernelRun0_A.sl.v169 (F := Ideal) c arg1 harg1 arg6 arg7 x0 = fun j => cheb (Ideal.tanh (x0 j)) 6 := by
  unfold kernelRun0_A.sl.v169 kernelRun0_A.sl.HS1_7
  rw [View.readCov_cons_unit_zero _ hz2]
  unfold k0_pay37
  dsimp only
  rw [shapeCast_self, cur6 c arg1 harg1 arg6 arg7 x0]

/-- The new term of step 8: `(2 · u) · T_7 − T_6 = T_8`. -/
theorem new8 : k0_pay39 (kernelRun0_A.sl.r (F := Ideal) c arg1 harg1 x0) (kernelRun0_A.sl.v167 (F := Ideal) c arg1 harg1 arg6 arg7 x0) (kernelRun0_A.sl.v169 (F := Ideal) c arg1 harg1 arg6 arg7 x0) = fun j => cheb (Ideal.tanh (x0 j)) 8 := by
  unfold k0_pay39
  dsimp only
  rw [tanh_blk c arg1 harg1 x0, cur7 c arg1 harg1 arg6 arg7 x0, prev6 c arg1 harg1 arg6 arg7 x0]
  rfl

end Cert.KernelIdeal.Kan

end
-- ==== Proof.LibMatmulIdx.lean ====
/-
  A matrix product accumulated into zeros, read at one output index, as a plain sum over ONE contraction coordinate
  `k : Fin n` of a left entry times a right entry — for any dimension numbers that contract a single axis of extent
  `n`, once the two operand indices at the output index and at `k` have been named (`li k`, `ri k`). On the extended
  reals the products' sum has no rounding and no chunk order left in it, so this is all a product says.
-/
import Idealize.ShloMosaic.PureOps.Ideal.Laws
import Idealize.ShloMosaic.Lib.ValueIdx

noncomputable section

namespace Idealize.ShloMosaic.ValueIdx

open Idealize.ShloMosaic

/-- The matrix unit's product into a zero accumulator, at output index `j`: the sum over the contraction coordinate
    of the left operand at `li k` times the right operand at `ri k`. -/
theorem matmul_zero_apply_of_idx {sl sr so : Shape} {φ₁ φ₂ : FTy} (D : DotDims sl sr so) (n : ℕ) (hr : D.contr.rank = 1)
    (hs : D.contr.size ⟨0, by omega⟩ = n) (prec : Option ContractPrecision) (lhs : FVec Ideal sl φ₁)
    (rhs : FVec Ideal sr φ₂) (j : so.Idx) (li : Fin n → sl.Idx) (ri : Fin n → sr.Idx)
    (hl : ∀ k : Fin n, D.lhsIdx j ((contrEquiv1 D n hr hs).symm k) = li k)
    (hri : ∀ k : Fin n, D.rhsIdx j ((contrEquiv1 D n hr hs).symm k) = ri k) :
    FloatOps.matmul D prec lhs rhs (constant so .f32 0x00000000#32) j = ∑ k : Fin n, lhs (li k) * rhs (ri k) := by
  rw [Ideal.matmul_constant_zero_apply, ← Equiv.sum_comp (contrEquiv1 D n hr hs).symm]
  exact Finset.sum_congr rfl fun k _ => by rw [hl k, hri k]

end Idealize.ShloMosaic.ValueIdx

end
-- ==== Proof.KAcc.lean ====
/-
  The accumulator, read back after each of its nine updates.

  Each update adds to the accumulator one matrix product: the block's degree-`k` Chebyshev values (rounded to the
  narrow format, which changes nothing on the extended reals) against slice `k` of the stacked coefficients. At entry
  `(p, n)` that product is the sum over the 256 coordinates `d` of `T_k(tanh x[p, d]) · w[k, d, n]`; so after update
  `k` the accumulator at `(p, n)` is zero plus the degree sums `0 … k`, added in that order.
-/
import proofs.«131409_j60464549593380_1_alg».proof.Proof.Gen.KernelIdeal.Frame
import proofs.«131409_j60464549593380_1_alg».proof.Proof.Spec
import proofs.«131409_j60464549593380_1_alg».proof.Proof.LibReadBack
import proofs.«131409_j60464549593380_1_alg».proof.Proof.LibMatmulIdx
import proofs.«131409_j60464549593380_1_alg».proof.Proof.KCheb

set_option maxRecDepth 16384

noncomputable section

namespace Cert.KernelIdeal.Kan

open Idealize.ShloMosaic Idealize.ShloMosaic.TcCoe Idealize.ShloMosaic.ValueIdx
open Cert.KernelIdeal Cert.KernelIdeal.Gen Cert.KanSpec

variable (c : Dev nD) (arg1 : Memref sig .tc .vmem S4096x256 .f32) (harg1 : arg1.IsWhole) (arg2 : Memref sig .tc .vmem S9x256x256 .bf16) (harg2 : arg2.IsWhole)
  (arg5 : Memref sig .tc .vmem S4096x256 .f32) (arg6 : Memref sig .tc .vmem S4096x256 .f32) (arg7 : Memref sig .tc .vmem S4096x256 .f32)
  (x0 : Vec Ideal S4096x256 .f32) (x1 : Vec Ideal S9x256x256 .bf16)

/-- The degree-`k` sum of the block's row `p` against column `n` of coefficient slice `k`. -/
def blkDeg (x0 : Vec Ideal S4096x256 .f32) (x1 : Vec Ideal S9x256x256 .bf16) (p : Fin 4096) (n : Fin 256) (k : Fin 9) : EReal :=
  ∑ d : Fin 256, cheb (Ideal.tanh (x0 (ix2 p d))) k.val * x1 (ix3 k d n)

/-- Slice `k` of the stacked coefficients, loaded as a `[1, 256, 256]` piece and viewed as a matrix, at `(d, n)`. -/
theorem slice_apply (kk : ℕ) (hk : kk < 9) (inb : ∀ a, (![kk, 0, 0] : Fin S9x256x256.rank → ℕ) a + S1x256x256.size a ≤ S9x256x256.size a)
    (d n : Fin 256) :
    shapeCast S256x256 (View.readAt (Elt Ideal) arg2.view (Rect.unit (s := S9x256x256) ![kk, 0, 0] S1x256x256.size inb).toLoadRect (harg2.unread x1))
        shapeCasts_S1x256x256_S256x256 (ix2 d n)
      = x1 (ix3 (⟨kk, hk⟩ : Fin 9) d n) := by
  rw [View.readAt_eq_ld, harg2.read_unread]
  refine (shapeCast_apply _ shapeCasts_S1x256x256_S256x256 (ix2 d n) (ix3 (0 : Fin 1) d n) ?_).trans ?_
  · rw [Shape.rowMajor_val_three, Shape.rowMajor_val_two]
    show (0 * 256 + d.val) * 256 + n.val = d.val * 256 + n.val
    omega
  · show x1 _ = x1 _
    refine congrArg x1 (funext fun a => Fin.ext ?_)
    match a with
    | ⟨0, _⟩ => show kk + 1 * 0 = kk; omega
    | ⟨1, _⟩ => show 0 + 1 * d.val = d.val; omega
    | ⟨2, _⟩ => show 0 + 1 * n.val = n.val; omega

theorem lhs_row (j : S4096x256.Idx) (q : dot_S4096x256_S256x256_S4096x256_1_0_0_1_n_n.contr.Idx) : (dot_S4096x256_S256x256_S4096x256_1_0_0_1_n_n.lhsIdx j q 0).val = (j 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhs_col (j : S4096x256.Idx) (q : dot_S4096x256_S256x256_S4096x256_1_0_0_1_n_n.contr.Idx) : (dot_S4096x256_S256x256_S4096x256_1_0_0_1_n_n.lhsIdx j q 1).val = (q ⟨0, by decide⟩).val :=
  dot_S4096x256_S256x256_S4096x256_1_0_0_1_n_n.lhsIdx_val_of_single rfl j q
theorem rhs_row (j : S4096x256.Idx) (q : dot_S4096x256_S256x256_S4096x256_1_0_0_1_n_n.contr.Idx) : (dot_S4096x256_S256x256_S4096x256_1_0_0_1_n_n.rhsIdx j q 0).val = (q ⟨0, by decide⟩).val :=
  dot_S4096x256_S256x256_S4096x256_1_0_0_1_n_n.rhsIdx_val_of_single rfl j q
theorem rhs_col (j : S4096x256.Idx) (q : dot_S4096x256_S256x256_S4096x256_1_0_0_1_n_n.contr.Idx) : (dot_S4096x256_S256x256_S4096x256_1_0_0_1_n_n.rhsIdx j q 1).val = (j 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- One matrix product of the body at `(p, n)`: the sum over `d` of the left block at `(p, d)` times the slice at `(d, n)`. -/
theorem product_apply (lhs : FVec Ideal S4096x256 .f32) (w : FVec Ideal S256x256 .bf16) (p : Fin 4096) (n : Fin 256) :
    matmul dot_S4096x256_S256x256_S4096x256_1_0_0_1_n_n none (truncf .bf16 lhs bitsLt_bf16_f32) w
        (constant S4096x256 .f32 0x00000000#32) (ix2 p n)
      = ∑ d : Fin 256, lhs (ix2 p d) * w (ix2 d n) := by
  refine matmul_zero_apply_of_idx dot_S4096x256_S256x256_S4096x256_1_0_0_1_n_n 256 rfl rfl none _ _ (ix2 p n)
    (fun d => ix2 p d) (fun d => ix2 d n) (fun k => ?_) (fun k => ?_)
  · have hk := contrEquiv1_symm_val dot_S4096x256_S256x256_S4096x256_1_0_0_1_n_n 256 rfl rfl k
    exact funext fun a => Fin.ext (by
      match a with
      | ⟨0, _⟩ => exact lhs_row _ _
      | ⟨1, _⟩ => exact (lhs_col _ _).trans hk)
  · have hk := contrEquiv1_symm_val dot_S4096x256_S256x256_S4096x256_1_0_0_1_n_n 256 rfl rfl k
    exact funext fun a => Fin.ext (by
      match a with
      | ⟨0, _⟩ => exact (rhs_row _ _).trans hk
      | ⟨1, _⟩ => exact rhs_col _ _)

/-- One update of the accumulator at `(p, n)`: what it held plus the degree-`k` sum, when the left operand is the block's
    degree-`k` values. -/
theorem update_apply (a lhs : FVec Ideal S4096x256 .f32) (kk : ℕ) (hk : kk < 9)
    (inb : ∀ a, (![kk, 0, 0] : Fin S9x256x256.rank → ℕ) a + S1x256x256.size a ≤ S9x256x256.size a)
    (p : Fin 4096) (n : Fin 256) (A : EReal) (ha : a (ix2 p n) = A)
    (hl : lhs = fun j => cheb (Ideal.tanh (x0 j)) kk) :
    addf a (matmul dot_S4096x256_S256x256_S4096x256_1_0_0_1_n_n none (truncf .bf16 lhs bitsLt_bf16_f32)
        (shapeCast S256x256 (View.readAt (Elt Ideal) arg2.view (Rect.unit (s := S9x256x256) ![kk, 0, 0] S1x256x256.size inb).toLoadRect (harg2.unread x1) : Vec Ideal S1x256x256 .bf16)
          shapeCasts_S1x256x256_S256x256 : FVec Ideal S256x256 .bf16)
        (constant S4096x256 .f32 0x00000000#32)) (ix2 p n)
      = A + blkDeg x0 x1 p n ⟨kk, hk⟩ := by
  show a (ix2 p n) + _ = _
  rw [ha, product_apply, hl]
  refine congrArg (A + ·) (Finset.sum_congr rfl fun d _ => ?_)
  rw [slice_apply arg2 harg2 x1 kk hk inb d n]

/-- The partial sums the accumulator runs through at `(p, n)`. -/
def accAt (x0 : Vec Ideal S4096x256 .f32) (x1 : Vec Ideal S9x256x256 .bf16) (p : Fin 4096) (n : Fin 256) : ℕ → EReal
  | 0 => zero
  | (k + 1) => accAt x0 x1 p n k + (if h : k < 9 then blkDeg x0 x1 p n ⟨k, h⟩ else 0)

/-- The accumulator is zeroed. -/
theorem acc0 : kernelRun0_A.sl.v13 (F := Ideal) c arg5 = fun _ => zero := by
  unfold kernelRun0_A.sl.v13 kernelRun0_A.sl.HS0_1
  rw [View.readCov_unit_zero _ hz2]
  unfold k0_pay8
  dsimp only
  rw [shapeCast_self]
  rfl

/-- After update 0 the accumulator at `(p, n)` is the partial sum through degree 0. -/
theorem acc1 (p : Fin 4096) (n : Fin 256) :
    kernelRun0_A.sl.v23 (F := Ideal) c arg2 harg2 arg5 arg6 x1 (ix2 p n) = accAt x0 x1 p n 1 := by
  unfold kernelRun0_A.sl.v23 kernelRun0_A.sl.HS0_2
  rw [View.readCov_cons_unit_zero _ hz2]
  unfold k0_pay9
  dsimp only
  rw [shapeCast_self]
  exact update_apply arg2 harg2 x0 x1 _ _ 0 (by omega) _ p n _ (congrFun (acc0 c arg5) (ix2 p n)) (prev0 c arg6 x0)

/-- After update 1 the accumulator at `(p, n)` is the partial sum through degree 1. -/
theorem acc2 (p : Fin 4096) (n : Fin 256) :
    kernelRun0_A.sl.v39 (F := Ideal) c arg1 harg1 arg2 harg2 arg5 arg6 arg7 x0 x1 (ix2 p n) = accAt x0 x1 p n 2 := by
  unfold kernelRun0_A.sl.v39 kernelRun0_A.sl.HS0_3
  rw [View.readCov_cons_unit_zero _ hz2]
  unfold k0_pay12 kernelRun0_A.sl.r_1 kernelRun0_A.sl.r_2 k0_pay10 k0_pay11
  dsimp only
  rw [shapeCast_self]
  exact update_apply arg2 harg2 x0 x1 _ _ 1 (by omega) _ p n _ (acc1 c arg2 harg2 arg5 arg6 x0 x1 p n) (cur1 c arg1 harg1 arg7 x0)

/-- After update 2 the accumulator at `(p, n)` is the partial sum through degree 2. -/
theorem acc3 (p : Fin 4096) (n : Fin 256) :
    kernelRun0_A.sl.v61 (F := Ideal) c arg1 harg1 arg2 harg2 arg5 arg6 arg7 x0 x1 (ix2 p n) = accAt x0 x1 p n 3 := by
  unfold kernelRun0_A.sl.v61 kernelRun0_A.sl.HS0_4
  rw [View.readCov_cons_unit_zero _ hz2]
  unfold k0_pay14
  dsimp only
  rw [shapeCast_self]
  exact update_apply arg2 harg2 x0 x1 _ _ 2 (by omega) _ p n _ (acc2 c arg1 harg1 arg2 harg2 arg5 arg6 arg7 x0 x1 p n) (new2 c arg1 harg1 arg6 arg7 x0)

/-- After update 3 the accumulator at `(p, n)` is the partial sum through degree 3. -/
theorem acc4 (p : Fin 4096) (n : Fin 256) :
    kernelRun0_A.sl.v83 (F := Ideal) c arg1 harg1 arg2 harg2 arg5 arg6 arg7 x0 x1 (ix2 p n) = accAt x0 x1 p n 4 := by
  unfold kernelRun0_A.sl.v83 kernelRun0_A.sl.HS0_5
  rw [View.readCov_cons_unit_zero _ hz2]
  unfold k0_pay19
  dsimp only
  rw [shapeCast_self]
  exact update_apply arg2 harg2 x0 x1 _ _ 3 (by omega) _ p n _ (acc3 c arg1 harg1 arg2 harg2 arg5 arg6 arg7 x0 x1 p n) (new3 c arg1 harg1 arg6 arg7 x0)

/-- After update 4 the accumulator at `(p, n)` is the partial sum through degree 4. -/
theorem acc5 (p : Fin 4096) (n : Fin 256) :
    kernelRun0_A.sl.v105 (F := Ideal) c arg1 harg1 arg2 harg2 arg5 arg6 arg7 x0 x1 (ix2 p n) = accAt x0 x1 p n 5 := by
  unfold kernelRun0_A.sl.v105 kernelRun0_A.sl.HS0_6
  rw [View.readCov_cons_unit_zero _ hz2]
  unfold k0_pay24 kernelRun0_A.sl.r_5 k0_pay23
  dsimp only
  rw [shapeCast_self]
  exact update_apply arg2 harg2 x0 x1 _ _ 4 (by omega) _ p n _ (acc4 c arg1 harg1 arg2 harg2 arg5 arg6 arg7 x0 x1 p n) (new4 c arg1 harg1 arg6 arg7 x0)

/-- After update 5 the accumulator at `(p, n)` is the partial sum through degree 5. -/
theorem acc6 (p : Fin 4096) (n : Fin 256) :
    kernelRun0_A.sl.v127 (F := Ideal) c arg1 harg1 arg2 harg2 arg5 arg6 arg7 x0 x1 (ix2 p n) = accAt x0 x1 p n 6 := by
  unfold kernelRun0_A.sl.v127 kernelRun0_A.sl.HS0_7
  rw [View.readCov_cons_unit_zero _ hz2]
  unfold k0_pay28
  dsimp only
  rw [shapeCast_self]
  exact update_apply arg2 harg2 x0 x1 _ _ 5 (by omega) _ p n _ (acc5 c arg1 harg1 arg2 harg2 arg5 arg6 arg7 x0 x1 p n) (new5 c arg1 harg1 arg6 arg7 x0)

/-- After update 6 the accumulator at `(p, n)` is the partial sum through degree 6. -/
theorem acc7 (p : Fin 4096) (n : Fin 256) :
    kernelRun0_A.sl.v149 (F := Ideal) c arg1 harg1 arg2 harg2 arg5 arg6 arg7 x0 x1 (ix2 p n) = accAt x0 x1 p n 7 := by
  unfold kernelRun0_A.sl.v149 kernelRun0_A.sl.HS0_8
  rw [View.readCov_cons_unit_zero _ hz2]
  unfold k0_pay32
  dsimp only
  rw [shapeCast_self]
  exact update_apply arg2 harg2 x0 x1 _ _ 6 (by omega) _ p n _ (acc6 c arg1 harg1 arg2 harg2 arg5 arg6 arg7 x0 x1 p n) (new6 c arg1 harg1 arg6 arg7 x0)

/-- After update 7 the accumulator at `(p, n)` is the partial sum through degree 7. -/
theorem acc8 (p : Fin 4096) (n : Fin 256) :
    kernelRun0_A.sl.v171 (F := Ideal) c arg1 harg1 arg2 harg2 arg5 arg6 arg7 x0 x1 (ix2 p n) = accAt x0 x1 p n 8 := by
  unfold kernelRun0_A.sl.v171 kernelRun0_A.sl.HS0_9
  rw [View.readCov_cons_unit_zero _ hz2]
  unfold k0_pay36
  dsimp only
  rw [shapeCast_self]
  exact update_apply arg2 harg2 x0 x1 _ _ 7 (by omega) _ p n _ (acc7 c arg1 harg1 arg2 harg2 arg5 arg6 arg7 x0 x1 p n) (new7 c arg1 harg1 arg6 arg7 x0)

/-- After update 8 the accumulator at `(p, n)` is the partial sum through degree 8. -/
theorem acc9 (p : Fin 4096) (n : Fin 256) :
    kernelRun0_A.sl.v187 (F := Ideal) c arg1 harg1 arg2 harg2 arg5 arg6 arg7 x0 x1 (ix2 p n) = accAt x0 x1 p n 9 := by
  unfold kernelRun0_A.sl.v187 kernelRun0_A.sl.HS0_10
  rw [View.readCov_cons_unit_zero _ hz2]
  unfold k0_pay1 kernelRun0_A.sl.r_9 k0_pay40
  dsimp only
  rw [shapeCast_self]
  exact update_apply arg2 harg2 x0 x1 _ _ 8 (by omega) _ p n _ (acc8 c arg1 harg1 arg2 harg2 arg5 arg6 arg7 x0 x1 p n) (new8 c arg1 harg1 arg6 arg7 x0)

end Cert.KernelIdeal.Kan

end
-- ==== Proof.KOut.lean ====
/-
  What one grid point leaves in its output block.

  The body's last store writes, for each of the block's 4096 rows `p`, the sum over the 256 neurons `n` of the final
  accumulator at `(p, n)` times `hweights[n]` (the weight row broadcast down the rows, the products summed along the
  lanes, the column of sums stored). With the accumulator's partial sums this is the block's row of the layer.
-/
import proofs.«131409_j60464549593380_1_alg».proof.Proof.Gen.KernelIdeal.Frame
import proofs.«131409_j60464549593380_1_alg».proof.Proof.Spec
import proofs.«131409_j60464549593380_1_alg».proof.Proof.LibReadBack
import proofs.«131409_j60464549593380_1_alg».proof.Proof.LibColumn
import proofs.«131409_j60464549593380_1_alg».proof.Proof.KCheb
import proofs.«131409_j60464549593380_1_alg».proof.Proof.KAcc

set_option maxRecDepth 16384

noncomputable section

namespace Cert.KernelIdeal.Kan

open Idealize.ShloMosaic Idealize.ShloMosaic.TcCoe Idealize.ShloMosaic.ValueIdx
open Cert.KernelIdeal Cert.KernelIdeal.Gen Cert.KanSpec

/-- A lane sum of a `[4096, 256]` array at row `p`: the sum of the row's 256 entries. -/
theorem rowsum_apply (src : FVec Ideal S4096x256 .f32) (h : S4096x256.Reduces [1] S4096) (hφ : FKind.Formats .f32)
    (hacc : (0x00000000#32 : BitVec 32) = 0x00000000#32) (p : Fin 4096) :
    multiReduction .add [1] S4096 src 0x00000000#32 h hφ hacc (ix1 p) = ∑ n : Fin 256, src (ix2 p n) := by
  refine (Ideal.multiReduction_add_single src 0x00000000#32 h hφ hacc (ix1 p)).trans ?_
  refine Finset.sum_congr rfl fun n _ => congrArg src (funext fun a => Fin.ext ?_)
  match a with
  | ⟨0, _⟩ => rfl
  | ⟨1, _⟩ => rfl

/-- The output block at row `p`: the weighted sum over the neurons of the final accumulator. -/
theorem out_apply (c : Dev nD) (i : grid0.Coords) (arg1 : Memref sig .tc .vmem S4096x256 .f32) (harg1 : arg1.IsWhole) (arg2 : Memref sig .tc .vmem S9x256x256 .bf16) (harg2 : arg2.IsWhole) (arg3 : Memref sig .tc .vmem S1x256 .f32) (harg3 : arg3.IsWhole) (arg4 : Memref sig .tc .vmem S4096x1 .f32) (harg4 : arg4.IsWhole)
    (arg5 : Memref sig .tc .vmem S4096x256 .f32) (harg5 : arg5.IsWhole) (arg6 : Memref sig .tc .vmem S4096x256 .f32) (harg6 : arg6.IsWhole)
    (arg7 : Memref sig .tc .vmem S4096x256 .f32) (harg7 : arg7.IsWhole)
    (x0 : Vec Ideal S4096x256 .f32) (x1 : Vec Ideal S9x256x256 .bf16) (x2 : Vec Ideal S1x256 .f32) (p : Fin 4096) :
    out0_A_3 (F := Ideal) c i arg1 harg1 arg2 harg2 arg3 harg3 arg4 harg4 arg5 harg5 arg6 harg6 arg7 harg7 x0 x1 x2 (ix2 p (0 : Fin 1))
      = ∑ n : Fin 256, accAt x0 x1 p n 9 * x2 (ix2 (0 : Fin 1) n) := by
  unfold out0_A_3
  rw [View.read_writes_eq_canon _ _ _ (cover0_A_3 c i arg1 harg1 arg2 harg2 arg3 harg3 arg4 harg4 arg5 harg5 arg6 harg6 arg7 harg7 x0 x1 x2)]
  unfold kernelRun0_A
  dsimp only
  rw [View.canon_unit_zero hz2]
  unfold k0_pay4
  dsimp only
  rw [View.readAt_eq_ld, harg3.read_unread, View.ld_unit_zero (S := S1x256) hz2, shapeCast_self]
  refine (shapeCast_a_a1_apply _ shapeCasts_S4096_S4096x1 p 0).trans ?_
  refine (rowsum_apply _ _ _ _ p).trans ?_
  refine Finset.sum_congr rfl fun n _ => ?_
  refine (mulf_apply _ _ _).trans ?_
  rw [acc9 c arg1 harg1 arg2 harg2 arg5 arg6 arg7 x0 x1 p n]
  refine congrArg (accAt x0 x1 p n 9 * ·) ?_
  refine broadcastTo_apply x2 broadcasts_S1x256_S4096x256 (ix2 p n) (ix2 (0 : Fin 1) n) fun ax => ?_
  match ax with
  | ⟨0, _⟩ => rfl
  | ⟨1, _⟩ => rfl

/-- The nine updates, written out. -/
theorem accAt_nine (x0 : Vec Ideal S4096x256 .f32) (x1 : Vec Ideal S9x256x256 .bf16) (p : Fin 4096) (n : Fin 256) :
    accAt x0 x1 p n 9 = zero + blkDeg x0 x1 p n 0 + blkDeg x0 x1 p n 1 + blkDeg x0 x1 p n 2 + blkDeg x0 x1 p n 3
      + blkDeg x0 x1 p n 4 + blkDeg x0 x1 p n 5 + blkDeg x0 x1 p n 6 + blkDeg x0 x1 p n 7 + blkDeg x0 x1 p n 8 := rfl

/-- A block's row against the layer's row: when the block's entries are row `b` of `x`, the coefficient slices are
    the coefficients re-laid (`w[k, d, n] = coeffs[n, d · 9 + k]`) and the weight row is `hweights`, the block's weighted
    sum at row `p` is the layer's result at `b`. -/
theorem row_eq_G (x0 : Vec Ideal S4096x256 .f32) (x1 : Vec Ideal S9x256x256 .bf16) (x2 : Vec Ideal S1x256 .f32)
    (X : (⟨2, ![32768, 256]⟩ : Shape).Idx → EReal) (cf : (⟨2, ![256, 2304]⟩ : Shape).Idx → EReal)
    (hw : (⟨1, ![256]⟩ : Shape).Idx → EReal) (p : Fin 4096) (b : Fin 32768)
    (h0 : ∀ d : Fin 256, x0 (ix2 p d) = X (ix2 b d))
    (h1 : ∀ (k : Fin 9) (d n : Fin 256), x1 (ix3 k d n) = cf (ix2 n ⟨d.val * 9 + k.val, by have := d.isLt; have := k.isLt; omega⟩))
    (h2 : ∀ n : Fin 256, x2 (ix2 (0 : Fin 1) n) = hw (ix1 n)) :
    ∑ n : Fin 256, accAt x0 x1 p n 9 * x2 (ix2 (0 : Fin 1) n) = G X cf hw (ix1 b) := by
  unfold G
  show _ = Ideal.ofBits .f32 0x00000000#32 + _
  rw [Ideal.ofBits_zero_f32, zero_add]
  refine Finset.sum_congr rfl fun n _ => ?_
  have hd : ∀ k : Fin 9, blkDeg x0 x1 p n k = degreeSum X cf b n k := fun k => by
    unfold blkDeg degreeSum feat
    exact Finset.sum_congr rfl fun d _ => by rw [h0 d, h1 k d n]
  rw [h2 n, accAt_nine, neuron_eq_acc]
  simp only [hd]

end Cert.KernelIdeal.Kan

end
-- ==== Proof.KValue.lean ====
/-
  From the blocks to the result.

  The host lines before the region re-lay the coefficients as nine `[256, 256]` slices, `w[k, d, n] = coeffs[n, d · 9 + k]`,
  and give `hweights` a leading unit axis. Grid point `t` reads rows `4096 · t … 4096 · t + 4095` of `x`, all nine slices
  and the weight row, and writes rows `4096 · t …` of the `[32768, 1]` output; the eight points' blocks tile it. So the
  output array ends holding the layer's result down its one column, and the host line after the region drops the
  unit axis.
-/
import proofs.«131409_j60464549593380_1_alg».proof.Proof.Gen.KernelIdeal.Frame
import proofs.«131409_j60464549593380_1_alg».proof.Proof.Spec
import proofs.«131409_j60464549593380_1_alg».proof.Proof.KOut

set_option maxRecDepth 16384

noncomputable section

namespace Cert.KernelIdeal.Kan

open Idealize.ShloMosaic Idealize.ShloMosaic.TcCoe Idealize.ShloMosaic.ValueIdx
open Cert.KernelIdeal Cert.KernelIdeal.Gen Cert.KanSpec

open Idealize.SL.Sem

variable (m : (ℓ : Loc nD τ sig) → Buf (Elt Ideal) ℓ) (ρ : Dev nD → PrngReg)

/-- The three argument arrays of a core. -/
abbrev argX (c : Dev nD) : S32768x256.Idx → EReal := m ((c : Thread nD τ).loc main_arg0)
abbrev argC (c : Dev nD) : S256x2304.Idx → EReal := m ((c : Thread nD τ).loc main_arg1)
abbrev argH (c : Dev nD) : S256.Idx → EReal := m ((c : Thread nD τ).loc main_arg2)

/-- The output array's contents: the layer's result down the one column. -/
def outArr (c : Dev nD) : S32768x1.Idx → EReal := fun i => G (argX m c) (argC m c) (argH m c) (ix1 (i 0))

/-- The re-laid coefficients as the region finds them, at `(k, d, n)`. -/
theorem slices_apply (c : Dev nD) (k : Fin 9) (d n : Fin 256) :
    (V m c main_v2 : S9x256x256.Idx → EReal) (ix3 k d n)
      = argC m c (ix2 n ⟨d.val * 9 + k.val, by have := d.isLt; have := k.isLt; omega⟩) := by
  have e : (V m c main_v2 : S9x256x256.Idx → EReal)
      = (truncf (F := Ideal) .bf16 (transpose S9x256x256 [2, 1, 0] (shapeCast S256x256x9 (argC m c) shapeCasts_S256x2304_S256x256x9) transposes_S256x256x9_S9x256x256_2_1_0 : FVec Ideal S9x256x256 .f32) bitsLt_bf16_f32 : S9x256x256.Idx → EReal) := by
    show StableHlo.after hostOps0 (fun b => m (c, b)) (Proc.devRef .tc main_v2) = _
    after_results
    rfl
  rw [e]
  show transpose S9x256x256 [2, 1, 0] (shapeCast S256x256x9 (argC m c) shapeCasts_S256x2304_S256x256x9) transposes_S256x256x9_S9x256x256_2_1_0 (ix3 k d n) = _
  refine (transpose_apply [2, 1, 0] _ transposes_S256x256x9_S9x256x256_2_1_0 (ix3 k d n) (ix3 n d k) (fun b => ?_)).trans ?_
  · match b with
    | ⟨0, _⟩ => rfl
    | ⟨1, _⟩ => rfl
    | ⟨2, _⟩ => rfl
  · refine shapeCast_apply _ shapeCasts_S256x2304_S256x256x9 (ix3 n d k) (ix2 n ⟨d.val * 9 + k.val, by have := d.isLt; have := k.isLt; omega⟩) ?_
    rw [Shape.rowMajor_val_three, Shape.rowMajor_val_two]
    show n.val * 2304 + (d.val * 9 + k.val) = (n.val * 256 + d.val) * 9 + k.val
    omega

/-- The weight row as the region finds it. -/
theorem weights_apply (c : Dev nD) (n : Fin 256) :
    (V m c main_v3 : S1x256.Idx → EReal) (ix2 (0 : Fin 1) n) = argH m c (ix1 n) := by
  have e : (V m c main_v3 : S1x256.Idx → EReal) = shapeCast S1x256 (argH m c) shapeCasts_S256_S1x256 := by
    show StableHlo.after hostOps0 (fun b => m (c, b)) (Proc.devRef .tc main_v3) = _
    after_results
    rfl
  rw [e]
  refine shapeCast_apply _ shapeCasts_S256_S1x256 (ix2 (0 : Fin 1) n) (ix1 n) ?_
  rw [Shape.rowMajor_val_one, Shape.rowMajor_val_two]
  show n.val = 0 * 256 + n.val
  omega

/-- Where each window's block sits at point `t`: the `x` window and the output window at block row `t`, the other two
    at the origin. -/
theorem idx_facts : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point `t`'s block of `x` at `(p, d)` is `x[4096 · t + p, d]`. -/
theorem xblk_apply (c : Dev nD) (t : Fin cfg0.N) (p : Fin 4096) (d : Fin 256) (hb : t.val * 4096 + p.val < 32768) :
    (iblk m c 0 t : Vec Ideal S4096x256 .f32) (ix2 p d) = argX m c (ix2 ⟨t.val * 4096 + p.val, hb⟩ d) := by
  obtain ⟨f00, f01, -⟩ := idx_facts t
  show V m c main_arg0 (((cfg0.win 0).blk t).view.emb (ix2 p d)) = _
  rw [V_main_arg0]
  refine congrArg (argX m c) (funext fun a => Fin.ext ?_)
  match a with
  | ⟨0, _⟩ => show win0_0.index t (0 : Fin 2) * 4096 + 1 * p.val = t.val * 4096 + p.val; omega
  | ⟨1, _⟩ => show win0_0.index t (1 : Fin 2) * 256 + 1 * d.val = d.val; omega

/-- Every point's block of the re-laid coefficients is the whole array. -/
theorem wblk_apply (c : Dev nD) (t : Fin cfg0.N) (k : Fin 9) (d n : Fin 256) :
    (iblk m c 1 t : Vec Ideal S9x256x256 .bf16) (ix3 k d n)
      = argC m c (ix2 n ⟨d.val * 9 + k.val, by have := d.isLt; have := k.isLt; omega⟩) := by
  obtain ⟨-, -, f10, f11, f12, -⟩ := idx_facts t
  show (V m c main_v2 : S9x256x256.Idx → EReal) (((cfg0.win 1).blk t).view.emb (ix3 k d n)) = _
  rw [← slices_apply m c k d n]
  refine congrArg (V m c main_v2 : S9x256x256.Idx → EReal) (funext fun a => Fin.ext ?_)
  match a with
  | ⟨0, _⟩ => show win0_1.index t (0 : Fin 3) * 9 + 1 * k.val = k.val; omega
  | ⟨1, _⟩ => show win0_1.index t (1 : Fin 3) * 256 + 1 * d.val = d.val; omega
  | ⟨2, _⟩ => show win0_1.index t (2 : Fin 3) * 256 + 1 * n.val = n.val; omega

/-- Every point's block of the weight row is the whole row. -/
theorem hblk_apply (c : Dev nD) (t : Fin cfg0.N) (n : Fin 256) :
    (iblk m c 2 t : Vec Ideal S1x256 .f32) (ix2 (0 : Fin 1) n) = argH m c (ix1 n) := by
  obtain ⟨-, -, -, -, -, f20, f21, -⟩ := idx_facts t
  show (V m c main_v3 : S1x256.Idx → EReal) (((cfg0.win 2).blk t).view.emb (ix2 (0 : Fin 1) n)) = _
  rw [← weights_apply m c n]
  refine congrArg (V m c main_v3 : S1x256.Idx → EReal) (funext fun a => Fin.ext ?_)
  match a with
  | ⟨0, _⟩ => show win0_2.index t (0 : Fin 2) * 1 + 1 * 0 = 0; omega
  | ⟨1, _⟩ => show win0_2.index t (1 : Fin 2) * 256 + 1 * n.val = n.val; omega

/-- What point `t` writes back is block `t` of the output array's contents. -/
theorem flushed_eq (c : Dev nD) (t : Fin cfg0.N) :
    (dats m 0 c).flushed 3 t = ((cfg0.win 3).blk t).view.read (Elt Ideal) (outArr m c) := by
  show (cfg0.win 3).cut (grid0.coords t) ((dats m 0 c).after 3 t) = _
  rw [after0_3]
  unfold outsAt0
  obtain ⟨-, -, -, -, -, -, -, f30, f31⟩ := idx_facts t
  have hN : cfg0.N = 8 := N_0
  funext y
  obtain ⟨p, u, rfl⟩ : ∃ (p : Fin 4096) (u : Fin 1), y = (ix2 p u : S4096x1.Idx) := ⟨y 0, y 1, eq_ix2 (n0 := 4096) (n1 := 1) y⟩
  obtain rfl : u = 0 := Subsingleton.elim _ _
  have hb : t.val * 4096 + p.val < 32768 := by have := t.isLt; have := p.isLt; omega
  show out0_A_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (ix2 p (0 : Fin 1))
    = outArr m c (((cfg0.win 3).blk t).view.emb (ix2 p (0 : Fin 1)))
  refine (out_apply c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) p).trans ?_
  refine (row_eq_G (iblk m c 0 t) (iblk m c 1 t) (iblk m c 2 t) (argX m c) (argC m c) (argH m c) p ⟨t.val * 4096 + p.val, hb⟩
    (fun d => xblk_apply m c t p d hb) (fun k d n => wblk_apply m c t k d n) (fun n => hblk_apply m c t n)).trans ?_
  unfold outArr
  refine congrArg (G (argX m c) (argC m c) (argH m c)) (congrArg ix1 (Fin.ext ?_))
  show t.val * 4096 + p.val = win0_3.index t (0 : Fin 2) * 4096 + 1 * p.val
  omega

/-- An index of the output array is in point `t`'s block iff each coordinate is in the block's range. -/
theorem mem_blk (t : Fin cfg0.N) (i : S32768x1.Idx) :
    i ∈ ((cfg0.win 3).blk t).view.set ↔ ∀ a : Fin 2, win0_3.index t a * S4096x1.size a ≤ (i a).val ∧ (i a).val < win0_3.index t a * S4096x1.size a + S4096x1.size a := by
  show i ∈ ((View.whole main_v4).slice (win0_3.rect t)).set ↔ _
  rw [View.set_slice_whole, Rect.mem_set_unit]
  exact Iff.rfl

/-- The eight blocks tile the output array (row `r` is in block `r / 4096`), so it ends at the layer's result. -/
theorem final (c : Dev nD) : (dats m 0 c).arrAt 3 cfg0.N = outArr m c :=
  (dats m 0 c).arrAt_eq_of_cover 3 (outArr m c) (fun t _ => flushed_eq m c t) fun i => by
    have hi0 : (i 0).val < 32768 := (i 0).isLt
    have hi1 : (i 1).val < 1 := (i 1).isLt
    have hN : cfg0.N = 8 := N_0
    refine ⟨⟨(i 0).val / 4096, by omega⟩, flush0_3 _, ?_⟩
    rw [mem_blk]
    obtain ⟨-, -, -, -, -, -, -, f30, f31⟩ := idx_facts ⟨(i 0).val / 4096, by omega⟩
    intro a
    match a with
    | ⟨0, _⟩ =>
      show win0_3.index ⟨(i 0).val / 4096, _⟩ (0 : Fin 2) * 4096 ≤ (i 0).val ∧ (i 0).val < win0_3.index ⟨(i 0).val / 4096, _⟩ (0 : Fin 2) * 4096 + 4096
      rw [f30]; show (i 0).val / 4096 * 4096 ≤ (i 0).val ∧ (i 0).val < (i 0).val / 4096 * 4096 + 4096; omega
    | ⟨1, _⟩ =>
      show win0_3.index ⟨(i 0).val / 4096, _⟩ (1 : Fin 2) * 1 ≤ (i 1).val ∧ (i 1).val < win0_3.index ⟨(i 0).val / 4096, _⟩ (1 : Fin 2) * 1 + 1
      rw [f31]; omega

/-- The host line after the region drops the output's unit axis: the result is the layer's function. -/
theorem tail_eq (c : Dev nD) :
    Pipeline.afterTail₀ cfgs (dats m) 0 (V0 m) [hostOps1] c main_v5 = G (argX m c) (argC m c) (argH m c) := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v4)
      = outArr m c := (Pipeline.withArrays_arr spec0 launch0.win.arr_inj c _ _ 3).trans (final m c)
  funext i
  obtain ⟨b, rfl⟩ : ∃ b : Fin 32768, i = ix1 b := ⟨i 0, eq_ix1 i⟩
  show shapeCast S32768 (Pipeline.withArrays (cfgs 0).spec c (V0 m c) (fun w => (dats m 0 c).arrAt w (cfgs 0).N) (Proc.devRef .tc main_v4))
    shapeCasts_S32768x1_S32768 (ix1 b) = _
  rw [hw]
  refine (shapeCast_apply (outArr m c) shapeCasts_S32768x1_S32768 (ix1 b) (ix2 b (0 : Fin 1)) ?_).trans rfl
  rw [Shape.rowMajor_val_two, Shape.rowMajor_val_one]
  show b.val * 1 + 0 = b.val
  omega

/-- The kernel's run, read: the result array at the layer's function of the arguments, the arguments unchanged. -/
theorem run : θ_run defs (onTc (τ := τ) (main (F := Ideal))) ⟨m, fun _ => 0, ρ⟩ fun r => ∀ c : Dev nD,
      r.2.mem ((c.tc : Thread nD τ).loc main_v5) = G (argX m c) (argC m c) (argH m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨
      ((h c).2 main_v5 (Pipeline.mem_restRefs_of main_v5 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Kan

end
-- ==== Proof.RefG.lean ====
/-
  The reference, stage by stage, is the layer's function of the specification.

  Its nine degree arrays are the Chebyshev values of `tanh x` entry by entry (each the recurrence
  `(2 · u) · T_{k+1} − T_k` on the two before it); they are joined along a new last axis and flattened, so feature
  `f` of a row is degree `f % 9` at coordinate `f / 9`; the product with the transposed coefficients is the neuron;
  the weighted sum over the neurons from zero is the result.
-/
import proofs.«131409_j60464549593380_1_alg».proof.Proof.Gen.ReferenceIdeal.Read
import proofs.«131409_j60464549593380_1_alg».proof.Proof.Spec

set_option maxRecDepth 16384

noncomputable section

namespace Cert.ReferenceIdeal.Kan

open Idealize.ShloMosaic Idealize.ShloMosaic.TcCoe Idealize.ShloMosaic.ValueIdx
open Cert.ReferenceIdeal Cert.ReferenceIdeal.Gen Cert.ReferenceIdeal.Read Cert.KanSpec

variable (x0 : (⟨S32768x256, .f32⟩ : BufTy).Contents (Elt Ideal))

/-- Degree 0: the constant one. -/
theorem deg0 : val_main_v1 (F := Ideal) = fun j => cheb (Ideal.tanh (x0 j)) 0 := by
  funext j; rw [val_main_v1_apply]; rfl

/-- Degree 1: `tanh x` itself. -/
theorem deg1 : val_main_v0 (F := Ideal) x0 = fun j => cheb (Ideal.tanh (x0 j)) 1 := rfl

/-- Degree 2, from degrees 1 and 0. -/
theorem deg2 : val_main_v5 (F := Ideal) x0 = fun j => cheb (Ideal.tanh (x0 j)) 2 := by
  funext j
  rw [val_main_v5_apply, val_main_v4_apply, val_main_v3_apply, val_main_v2_apply, deg0 x0]
  rfl

/-- Degree 3, from degrees 2 and 1. -/
theorem deg3 : val_main_v9 (F := Ideal) x0 = fun j => cheb (Ideal.tanh (x0 j)) 3 := by
  funext j
  rw [val_main_v9_apply, val_main_v8_apply, val_main_v7_apply, val_main_v6_apply, deg2 x0]
  rfl

/-- Degree 4, from degrees 3 and 2. -/
theorem deg4 : val_main_v13 (F := Ideal) x0 = fun j => cheb (Ideal.tanh (x0 j)) 4 := by
  funext j
  rw [val_main_v13_apply, val_main_v12_apply, val_main_v11_apply, val_main_v10_apply, deg3 x0, deg2 x0]
  rfl

/-- Degree 5, from degrees 4 and 3. -/
theorem deg5 : val_main_v17 (F := Ideal) x0 = fun j => cheb (Ideal.tanh (x0 j)) 5 := by
  funext j
  rw [val_main_v17_apply, val_main_v16_apply, val_main_v15_apply, val_main_v14_apply, deg4 x0, deg3 x0]
  rfl

/-- Degree 6, from degrees 5 and 4. -/
theorem deg6 : val_main_v21 (F := Ideal) x0 = fun j => cheb (Ideal.tanh (x0 j)) 6 := by
  funext j
  rw [val_main_v21_apply, val_main_v20_apply, val_main_v19_apply, val_main_v18_apply, deg5 x0, deg4 x0]
  rfl

/-- Degree 7, from degrees 6 and 5. -/
theorem deg7 : val_main_v25 (F := Ideal) x0 = fun j => cheb (Ideal.tanh (x0 j)) 7 := by
  funext j
  rw [val_main_v25_apply, val_main_v24_apply, val_main_v23_apply, val_main_v22_apply, deg6 x0, deg5 x0]
  rfl

/-- Degree 8, from degrees 7 and 6. -/
theorem deg8 : val_main_v29 (F := Ideal) x0 = fun j => cheb (Ideal.tanh (x0 j)) 8 := by
  funext j
  rw [val_main_v29_apply, val_main_v28_apply, val_main_v27_apply, val_main_v26_apply, deg7 x0, deg6 x0]
  rfl

/-- A degree array given a trailing unit axis reads the array. -/
theorem idx_unit (b : Fin 32768) (d : Fin 256) : idx_main_v30 (ix3 b d (0 : Fin 1)) = ix2 b d :=
  funext fun a => match a with
  | ⟨0, _⟩ => rfl
  | ⟨1, _⟩ => rfl

theorem piece0 (b : Fin 32768) (d : Fin 256) :
    val_main_v30 (F := Ideal) (ix3 b d (0 : Fin 1)) = cheb (Ideal.tanh (x0 (ix2 b d))) 0 := by
  rw [val_main_v30_apply, show idx_main_v30 (ix3 b d (0 : Fin 1)) = ix2 b d from idx_unit b d, deg0 x0]

theorem piece1 (b : Fin 32768) (d : Fin 256) :
    val_main_v31 (F := Ideal) x0 (ix3 b d (0 : Fin 1)) = cheb (Ideal.tanh (x0 (ix2 b d))) 1 := by
  rw [val_main_v31_apply, show idx_main_v31 (ix3 b d (0 : Fin 1)) = ix2 b d from idx_unit b d, deg1 x0]

theorem piece2 (b : Fin 32768) (d : Fin 256) :
    val_main_v32 (F := Ideal) x0 (ix3 b d (0 : Fin 1)) = cheb (Ideal.tanh (x0 (ix2 b d))) 2 := by
  rw [val_main_v32_apply, show idx_main_v32 (ix3 b d (0 : Fin 1)) = ix2 b d from idx_unit b d, deg2 x0]

theorem piece3 (b : Fin 32768) (d : Fin 256) :
    val_main_v33 (F := Ideal) x0 (ix3 b d (0 : Fin 1)) = cheb (Ideal.tanh (x0 (ix2 b d))) 3 := by
  rw [val_main_v33_apply, show idx_main_v33 (ix3 b d (0 : Fin 1)) = ix2 b d from idx_unit b d, deg3 x0]

theorem piece4 (b : Fin 32768) (d : Fin 256) :
    val_main_v34 (F := Ideal) x0 (ix3 b d (0 : Fin 1)) = cheb (Ideal.tanh (x0 (ix2 b d))) 4 := by
  rw [val_main_v34_apply, show idx_main_v34 (ix3 b d (0 : Fin 1)) = ix2 b d from idx_unit b d, deg4 x0]

theorem piece5 (b : Fin 32768) (d : Fin 256) :
    val_main_v35 (F := Ideal) x0 (ix3 b d (0 : Fin 1)) = cheb (Ideal.tanh (x0 (ix2 b d))) 5 := by
  rw [val_main_v35_apply, show idx_main_v35 (ix3 b d (0 : Fin 1)) = ix2 b d from idx_unit b d, deg5 x0]

theorem piece6 (b : Fin 32768) (d : Fin 256) :
    val_main_v36 (F := Ideal) x0 (ix3 b d (0 : Fin 1)) = cheb (Ideal.tanh (x0 (ix2 b d))) 6 := by
  rw [val_main_v36_apply, show idx_main_v36 (ix3 b d (0 : Fin 1)) = ix2 b d from idx_unit b d, deg6 x0]

theorem piece7 (b : Fin 32768) (d : Fin 256) :
    val_main_v37 (F := Ideal) x0 (ix3 b d (0 : Fin 1)) = cheb (Ideal.tanh (x0 (ix2 b d))) 7 := by
  rw [val_main_v37_apply, show idx_main_v37 (ix3 b d (0 : Fin 1)) = ix2 b d from idx_unit b d, deg7 x0]

theorem piece8 (b : Fin 32768) (d : Fin 256) :
    val_main_v38 (F := Ideal) x0 (ix3 b d (0 : Fin 1)) = cheb (Ideal.tanh (x0 (ix2 b d))) 8 := by
  rw [val_main_v38_apply, show idx_main_v38 (ix3 b d (0 : Fin 1)) = ix2 b d from idx_unit b d, deg8 x0]

/-- The nine unit pieces, in order. -/
def pieces : Fin 9 → ((⟨S32768x256x1, .f32⟩ : BufTy).Contents (Elt Ideal)) :=
  ![val_main_v30 (F := Ideal), val_main_v31 (F := Ideal) x0, val_main_v32 (F := Ideal) x0, val_main_v33 (F := Ideal) x0,
    val_main_v34 (F := Ideal) x0, val_main_v35 (F := Ideal) x0, val_main_v36 (F := Ideal) x0, val_main_v37 (F := Ideal) x0,
    val_main_v38 (F := Ideal) x0]

/-- The joined array at `(b, d, k)` is degree `k` at `(b, d)`: the `k`-th of the nine unit pieces. -/
theorem joined_apply (b : Fin 32768) (d : Fin 256) (k : Fin 9) :
    val_main_v39 (F := Ideal) x0 (ix3 b d k) = cheb (Ideal.tanh (x0 (ix2 b d))) k.val := by
  have h1 : val_main_v39 (F := Ideal) x0 (ix3 b d k) = pieces x0 k (ix3 b d (0 : Fin 1)) := by
    unfold val_main_v39
    refine concatenate_ofFn_unit_apply (t := S32768x256x9) (s₁ := S32768x256x1) (2 : Fin 3) (pieces x0) _ rfl rfl
      (ix3 b d k) k rfl (ix3 b d (0 : Fin 1)) fun bb hb => ?_
    match bb with
    | ⟨0, _⟩ => rfl
    | ⟨1, _⟩ => rfl
    | ⟨2, _⟩ => exact absurd rfl hb
  rw [h1]
  match k with
  | ⟨0, _⟩ => exact piece0 x0 b d
  | ⟨1, _⟩ => exact piece1 x0 b d
  | ⟨2, _⟩ => exact piece2 x0 b d
  | ⟨3, _⟩ => exact piece3 x0 b d
  | ⟨4, _⟩ => exact piece4 x0 b d
  | ⟨5, _⟩ => exact piece5 x0 b d
  | ⟨6, _⟩ => exact piece6 x0 b d
  | ⟨7, _⟩ => exact piece7 x0 b d
  | ⟨8, _⟩ => exact piece8 x0 b d

/-- The feature row: feature `f` of row `b` is degree `f % 9` at coordinate `f / 9`. -/
theorem features_apply (b : Fin 32768) (f : Fin 2304) :
    val_main_v40 (F := Ideal) x0 (ix2 b f) = feat x0 b ⟨f.val / 9, by have := f.isLt; omega⟩ (f.val % 9) := by
  rw [val_main_v40_apply]
  have e : idx_main_v40 (ix2 b f) = ix3 b (⟨f.val / 9, by have := f.isLt; omega⟩ : Fin 256) (⟨f.val % 9, by omega⟩ : Fin 9) :=
    funext fun a => Fin.ext (by
      have hb := b.isLt; have hf := f.isLt
      match a with
      | ⟨0, _⟩ => show (b.val * 2304 + f.val) / 2304 = b.val; omega
      | ⟨1, _⟩ => show (b.val * 2304 + f.val) / 9 % 256 = f.val / 9; omega
      | ⟨2, _⟩ => show (b.val * 2304 + f.val) % 9 = f.val % 9; omega)
  rw [e, joined_apply]
  rfl

/-- The reference's result array is `G` of its arguments. -/
theorem result_eq (x1 : (⟨S256x2304, .f32⟩ : BufTy).Contents (Elt Ideal)) (x2 : (⟨S256, .f32⟩ : BufTy).Contents (Elt Ideal)) :
    val_main_v46 (F := Ideal) x0 x1 x2 = G x0 x1 x2 := by
  funext i
  obtain ⟨b, rfl⟩ : ∃ b : Fin 32768, i = ix1 b := ⟨i 0, eq_ix1 i⟩
  rw [val_main_v46_apply]
  unfold G
  refine congrArg₂ (· + ·) rfl (Finset.sum_congr rfl fun n _ => ?_)
  rw [val_main_v45_apply, val_main_v42_apply, val_main_v44_apply, val_main_v43_apply]
  refine congrArg₂ (· * ·) ?_ (congrArg x2 (funext fun a => match a with | ⟨0, _⟩ => rfl))
  unfold neuron
  refine Finset.sum_congr rfl fun f _ => ?_
  rw [val_main_v41_apply,
    show lidx_main_v42 (idx_main_v46 (ix1 b) n) f = ix2 b f from funext fun a => match a with | ⟨0, _⟩ => rfl | ⟨1, _⟩ => rfl,
    features_apply]
  exact congrArg (_ * x1 ·) (funext fun a => match a with | ⟨0, _⟩ => rfl | ⟨1, _⟩ => rfl)

end Cert.ReferenceIdeal.Kan

end
-- ==== Proof.lean ====
/-
  The five claims about the Chebyshev layer.

  Both idealized programs compute, for a row `b`, the sum over the 256 neurons `n` of
  `(Σ_f T_{f % 9}(tanh x[b, f / 9]) · coeffs[n, f]) · hweights[n]`, with `T_k` the Chebyshev recurrence
  `T_{k+2} = (2 · u) · T_{k+1} − T_k`. The reference forms the 2304 features of a row and takes one product with
  the transposed coefficients. The kernel keeps the current and previous term in two buffers, adds to an accumulator
  one `[256, 256]` product per degree against the coefficients re-laid by degree, and takes the weighted lane sum.
  On the extended reals the two differ only in the order of a finite sum (feature `d · 9 + k` is degree `k` at
  coordinate `d`), which is a re-indexing in a commutative monoid: no finiteness of the inputs is used.

  The three frames are the generated frame runs (the reference's is its generated run with the result dropped); the
  idealization rewrote nothing, so `preserves` is trivial; `algebraic` puts the kernel's run, read at the layer's
  function (Proof/KValue.lean), beside the reference's generated run, read at the same function (Proof/RefG.lean).
-/
import proofs.«131409_j60464549593380_1_alg».proof.Defs
import proofs.«131409_j60464549593380_1_alg».proof.Proof.Gen.Kernel
import proofs.«131409_j60464549593380_1_alg».proof.Proof.Gen.Kernel.Frame
import proofs.«131409_j60464549593380_1_alg».proof.Proof.Gen.KernelIdeal
import proofs.«131409_j60464549593380_1_alg».proof.Proof.Gen.KernelIdeal.Frame
import proofs.«131409_j60464549593380_1_alg».proof.Proof.Gen.ReferenceIdeal
import proofs.«131409_j60464549593380_1_alg».proof.Proof.Gen.ReferenceIdeal.Run
import proofs.«131409_j60464549593380_1_alg».proof.Proof.Gen.ReferenceIdeal.Read
import proofs.«131409_j60464549593380_1_alg».proof.Proof.Gen.Pre_finite_inputs
import proofs.«131409_j60464549593380_1_alg».proof.Proof.KValue
import proofs.«131409_j60464549593380_1_alg».proof.Proof.RefG
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the layer's function `G` of the (agreeing) argument arrays. -/
theorem algebraic : Cert.algebraic_KernelIdeal_ReferenceIdeal := by
  intro m ρ m' ρ' _ hagree
  refine ⟨_, Cert.KernelIdeal.Kan.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, Cert.ReferenceIdeal.Kan.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
